-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024x1024 .f32) (main_arg5 : FVec F S4x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096x1024 .f32) (main_arg3 : FVec F S4x1024x1024 .f32) (main_arg4 : FVec F S4x1024x1024 .f32) (main_arg5 : FVec F S4x1024 .f32) (main_arg6 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S4096x1024 : Shape := ⟨2, ![4096, 1024]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S1x4096 : Shape := ⟨2, ![1, 4096]⟩
abbrev S512x1024 : Shape := ⟨2, ![512, 1024]⟩
abbrev S512x4096 : Shape := ⟨2, ![512, 4096]⟩

abbrev nBuf : Space → Nat
  | .hbm => 18
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S1024x4x1024, .f32⟩
  | .hbm, ⟨8, _⟩ => ⟨S1024x4096, .f32⟩
  | .hbm, ⟨9, _⟩ => ⟨S1024x4096, .bf16⟩
  | .hbm, ⟨10, _⟩ => ⟨S1024x4x1024, .f32⟩
  | .hbm, ⟨11, _⟩ => ⟨S1024x4096, .f32⟩
  | .hbm, ⟨12, _⟩ => ⟨S1024x4096, .bf16⟩
  | .hbm, ⟨13, _⟩ => ⟨S4x1024, .f32⟩
  | .hbm, ⟨14, _⟩ => ⟨S1x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S4x1024x1024_S1024x4x1024_2_0_1 : S4x1024x1024.Transposes [2, 0, 1] S1024x4x1024
  shapeCasts_S1024x4x1024_S1024x4096 : S1024x4x1024.ShapeCasts S1024x4096
  bitsLt_bf16_f32 : FTy.bits .bf16 < FTy.bits .f32
  shapeCasts_S4x1024_S1x4096 : S4x1024.ShapeCasts S1x4096
  inb_S512x1024_S512x1024_0_0 : ∀ a, (![0, 0] : Fin 2 → Nat) a + S512x1024.size a ≤ S512x1024.size a
  h_S512x1024 : 0 < S512x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  dot_S512x1024_S1024x4096_S512x4096_1_0_0_1_n_n_wf : DotDims.WF S512x1024 S1024x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .f32 = 32 ∨ (Rect.block (s := S4096x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .f32 = 32 ∨ (Rect.block (s := S4096x1024) S512x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .f32 = 32 ∨ (Rect.block (s := S4096x1024) S512x1024.size (cc0_transform_8 i) (hinb0_8 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_2) S512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x1x1024 : Shape := ⟨3, ![4, 1, 1024]⟩
abbrev S1x4096x1024 : Shape := ⟨3, ![1, 4096, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4x1024x4096, .f32⟩
  | .hbm, ⟨8, _⟩ => ⟨S4x4096x1024, .f32⟩
  | .hbm, ⟨9, _⟩ => ⟨S4x1024x4096, .f32⟩
  | .hbm, ⟨10, _⟩ => ⟨S4x4096x1024, .f32⟩
  | .hbm, ⟨11, _⟩ => ⟨S4x4096x1024, .f32⟩
  | .hbm, ⟨12, _⟩ => ⟨S4x1024, .f32⟩
  | .hbm, ⟨13, _⟩ => ⟨S4x1x1024, .f32⟩
  | .hbm, ⟨14, _⟩ => ⟨S4x4096x1024, .f32⟩
  | .hbm, ⟨15, _⟩ => ⟨S4x4096x1024, .f32⟩
  | .hbm, ⟨16, _⟩ => ⟨S1x4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S1x4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S1x4096x1024, .f32⟩
  | .hbm, ⟨37, _⟩ => ⟨S4096x1024, .f32⟩
  | .hbm, ⟨38, _⟩ => ⟨S4096x1024, .f32⟩
  | .hbm, ⟨39, _⟩ => ⟨S1x4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  transposes_S4x1024x4096_S4x4096x1024_0_2_1 : S4x1024x4096.Transposes [0, 2, 1] S4x4096x1024
  bcast_S4x1024_S4x1x1024_0_2 : S4x1024.BroadcastsInDim S4x1x1024 (![0, 2] : Fin 2 → Fin S4x1x1024.rank)
  bcast_S4x1x1024_S4x4096x1024_0_1_2 : S4x1x1024.BroadcastsInDim S4x4096x1024 (![0, 1, 2] : Fin 3 → Fin S4x4096x1024.rank)
  slices_S4x4096x1024_S1x4096x1024_0_0_0 : S4x4096x1024.Slices ![0, 0, 0] S1x4096x1024
  shapeCasts_S1x4096x1024_S4096x1024 : S1x4096x1024.ShapeCasts S4096x1024
  bcast_S_S4096x1024 : S_.BroadcastsInDim S4096x1024 (![] : Fin 0 → Fin S4096x1024.rank)
  slices_S4x4096x1024_S1x4096x1024_1_0_0 : S4x4096x1024.Slices ![1, 0, 0] S1x4096x1024
  slices_S4x4096x1024_S1x4096x1024_2_0_0 : S4x4096x1024.Slices ![2, 0, 0] S1x4096x1024
  slices_S4x4096x1024_S1x4096x1024_3_0_0 : S4x4096x1024.Slices ![3, 0, 0] S1x4096x1024
  dot_S4x1024x1024_S4096x1024_S4x1024x4096_2_1_01_0_n_n_wf : DotDims.WF S4x1024x1024 S4096x1024 S4x1024x4096 [2] [1] [0, 1] [0] [] []

variable [Facts₀]

def dot_S4x1024x1024_S4096x1024_S4x1024x4096_2_1_01_0_n_n : DotDims S4x1024x1024 S4096x1024 S4x1024x4096 where
  lhsContracting := [2]
  rhsContracting := [1]
  lhsNonContracting := [0, 1]
  rhsNonContracting := [0]
  lhsBatch := []
  rhsBatch := []
  wf := dot_S4x1024x1024_S4096x1024_S4x1024x4096_2_1_01_0_n_n_wf

class Facts : Prop extends Facts₀ where

variable [Facts]
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LstmPreact.lean ====
/-
  The kernel body's pre-activation block, read at an index.

  At one grid point the body holds a block of 512 batch rows. It multiplies the block of `x` by the fused weight
  matrix of `x` (features by 4096 columns, the four gates side by side, 1024 columns each), likewise the block of
  `h` by the fused weight matrix of `h`, adds the two products, and adds the fused bias row spread over the 512 rows.
  Narrowing a value to fewer bits is the identity on exact values, each product into a zero accumulator is a plain sum
  over the feature axis, and a cast between equal shapes changes nothing, so entry (p, q) of the block is

      (Σ_k X(p, k) · A(k, q) + Σ_k H(p, k) · B(k, q)) + r(0, q).
-/
import proofs.«113566_j9131100472067_2_alg».proof.Proof.Gen.KernelIdeal.Skeleton
import proofs.«113566_j9131100472067_2_alg».proof.Proof.LibPlainMatmul
import proofs.«113566_j9131100472067_2_alg».proof.Proof.LibRowBroadcast
import Idealize.ShloMosaic.Lib.Pipeline.Value
import Idealize.ShloMosaic.Lib.ValueIdx

noncomputable section

open scoped BigOperators

namespace Cert.LstmCell.Kernel

open Cert.KernelIdeal Cert.KernelIdeal.Gen Idealize.ShloMosaic Idealize.ShloMosaic.TcCoe Idealize.SL.Sem
open Idealize.ShloMosaic.ValueIdx

/-- The pre-activation block as the tree of vector operations the body applies. -/
theorem preact_tree (X H : FVec Ideal S512x1024 .f32) (A B : FVec Ideal S1024x4096 .bf16) (r : FVec Ideal S1x4096 .f32) :
    k0_pay1 (F := Ideal) X H A B r
      = addf (addf
          (matmul dot_S512x1024_S1024x4096_S512x4096_1_0_0_1_n_n none (truncf .bf16 X bitsLt_bf16_f32)
            (shapeCast S1024x4096 A shapeCasts_S1024x4096_S1024x4096) (constant S512x4096 .f32 0x00000000#32))
          (matmul dot_S512x1024_S1024x4096_S512x4096_1_0_0_1_n_n none (truncf .bf16 H bitsLt_bf16_f32)
            (shapeCast S1024x4096 B shapeCasts_S1024x4096_S1024x4096) (constant S512x4096 .f32 0x00000000#32)))
        (broadcastTo S512x4096 (shapeCast S1x4096 r shapeCasts_S1x4096_S1x4096) broadcasts_S1x4096_S512x4096) := rfl

/-- One fused product at (p, q): the sum over the feature axis. -/
theorem fused_product (X : FVec Ideal S512x1024 .f32) (A : FVec Ideal S1024x4096 .bf16) (p : Fin 512) (q : Fin 4096) :
    matmul dot_S512x1024_S1024x4096_S512x4096_1_0_0_1_n_n none (truncf .bf16 X bitsLt_bf16_f32)
        (shapeCast S1024x4096 A shapeCasts_S1024x4096_S1024x4096) (constant S512x4096 .f32 0x00000000#32) (ix2 p q)
      = ∑ k : Fin 1024, X (ix2 p k) * A (ix2 k q) := by
  refine (matmul_plain_zero_apply 512 1024 4096 none _ _ p q).trans ?_
  refine Finset.sum_congr rfl fun k _ => ?_
  rw [shapeCast_self]
  rfl

/-- Entry (p, q) of the pre-activation block. The one coordinate of the bias row's unit axis is written `u`. -/
theorem preact_apply (X H : FVec Ideal S512x1024 .f32) (A B : FVec Ideal S1024x4096 .bf16) (r : FVec Ideal S1x4096 .f32)
    (p : Fin 512) (q : Fin 4096) (u : Fin 1) :
    k0_pay1 (F := Ideal) X H A B r (ix2 p q)
      = ((∑ k : Fin 1024, X (ix2 p k) * A (ix2 k q)) + (∑ k : Fin 1024, H (ix2 p k) * B (ix2 k q))) + r (ix2 u q) := by
  rw [preact_tree]
  refine (addf_apply _ _ _).trans (congrArg₂ (· + ·) ((addf_apply _ _ _).trans (congrArg₂ (· + ·) ?_ ?_)) ?_)
  · exact fused_product X A p q
  · exact fused_product H B p q
  · refine (Cert.LibRowBroadcast.broadcastTo_1b_ab_apply _ _ p q u).trans ?_
    rw [shapeCast_self]

end Cert.LstmCell.Kernel

end
-- ==== Proof.LstmLayout.lean ====
/-
  The side-by-side layout of the four gates: a matrix with 4096 columns holds gate `g`'s 1024 hidden units in
  columns g · 1024, …, g · 1024 + 1023.
-/
import Idealize.ShloMosaic.Lib.ValueIdx

namespace Cert.LstmCell.Kernel

/-- The column of gate `g`, hidden unit `j`. -/
def col (g : Fin 4) (j : Fin 1024) : Fin 4096 :=
  ⟨g.val * 1024 + j.val, by have hg : g.val < 4 := g.isLt; have hj : j.val < 1024 := j.isLt; omega⟩

theorem col_val (g : Fin 4) (j : Fin 1024) : (col g j).val = g.val * 1024 + j.val := rfl

end Cert.LstmCell.Kernel
-- ==== Proof.LstmSpec.lean ====
/-
  One step of an LSTM cell, on the extended reals, as functions of the seven arrays it is given.

  The arrays: the input `x` and the previous hidden state `h` and cell state `cprev`, one row per batch element
  (4096 rows of 1024 features); the weights `Wx`, `Wh`, indexed (gate, hidden unit, feature), with four gates
  — input 0, forget 1, candidate 2, output 3 —; and the two biases `bx`, `bh`, indexed (gate, hidden unit).

  The pre-activation of gate `g` for batch row `b` and hidden unit `j` is

      pre g b j = (Σ_k x(b, k) · Wx(g, j, k) + Σ_k h(b, k) · Wh(g, j, k)) + (bx(g, j) + bh(g, j)),

  and the step's three results, index by index, are

      out  = σ(pre 3),   cell = σ(pre 1) · cprev + σ(pre 0) · tanh(pre 2),   hidden = out · tanh(cell),

  with σ the logistic function 1 / (1 + e^(-t)), extended to ±∞ by its limits.
-/
import Idealize.ShloMosaic.PureOps.Ideal
import Idealize.ShloMosaic.Lib.ValueIdx

noncomputable section

open scoped BigOperators

namespace Cert.LstmCell

open Idealize.ShloMosaic Idealize.ShloMosaic.ValueIdx

/-- Batch rows by features. -/
abbrev RowsShape : Shape := ⟨2, ![4096, 1024]⟩
/-- Gate by hidden unit by feature. -/
abbrev WeightShape : Shape := ⟨3, ![4, 1024, 1024]⟩
/-- Gate by hidden unit. -/
abbrev BiasShape : Shape := ⟨2, ![4, 1024]⟩

variable (x h : RowsShape.Idx → EReal) (Wx Wh : WeightShape.Idx → EReal) (bx bh : BiasShape.Idx → EReal)

/-- The pre-activation of gate `g` at batch row `b` and hidden unit `j`. -/
def pre (g : Fin 4) (b : Fin 4096) (j : Fin 1024) : EReal :=
  ((∑ k : Fin 1024, x (ix2 b k) * Wx (ix3 g j k)) + (∑ k : Fin 1024, h (ix2 b k) * Wh (ix3 g j k)))
    + (bx (ix2 g j) + bh (ix2 g j))

/-- The output gate: the logistic function of gate 3's pre-activation. -/
def outGate (i : RowsShape.Idx) : EReal := Ideal.logistic (pre x h Wx Wh bx bh 3 (i 0) (i 1))

/-- The new cell state: the forget gate times the old cell state, plus the input gate times the candidate. -/
def cell (cprev : RowsShape.Idx → EReal) (i : RowsShape.Idx) : EReal :=
  Ideal.logistic (pre x h Wx Wh bx bh 1 (i 0) (i 1)) * cprev i
    + Ideal.logistic (pre x h Wx Wh bx bh 0 (i 0) (i 1)) * Ideal.tanh (pre x h Wx Wh bx bh 2 (i 0) (i 1))

/-- The new hidden state: the output gate times tanh of the new cell state. -/
def hidden (cprev : RowsShape.Idx → EReal) (i : RowsShape.Idx) : EReal :=
  outGate x h Wx Wh bx bh i * Ideal.tanh (cell x h Wx Wh bx bh cprev i)

end Cert.LstmCell

end
-- ==== Proof.LstmPoint.lean ====
/-
  One grid point of the kernel computes the cell step on its 512 batch rows.

  Everything here is over variables: a block `X`, `H`, `C` of 512 rows taken from the arrays `x`, `h`, `cprev`
  at rows `row p`; fused weight matrices `A`, `B` whose column g · 1024 + j of row k holds Wx(g, j, k), Wh(g, j, k);
  and a fused bias row `r` whose entry g · 1024 + j holds bx(g, j) + bh(g, j). Then entry (p, g · 1024 + j) of the
  body's pre-activation block is `pre g (row p) j`: the sums over the feature axis are term by term the same. Each
  gate is the slice of the block at columns g · 1024 onward, and the three stored blocks are, entry by entry, the
  specification's output gate, new cell state and new hidden state at row `row p`.
-/
import proofs.«113566_j9131100472067_2_alg».proof.Proof.LstmPreact
import proofs.«113566_j9131100472067_2_alg».proof.Proof.LstmLayout
import proofs.«113566_j9131100472067_2_alg».proof.Proof.LstmSpec

noncomputable section

open scoped BigOperators

namespace Cert.LstmCell.Kernel

open Cert.KernelIdeal Cert.KernelIdeal.Gen Idealize.ShloMosaic Idealize.ShloMosaic.TcCoe Idealize.SL.Sem
open Idealize.ShloMosaic.ValueIdx Cert.LstmCell

/-- The slice of a 4096-column block at column offset g · 1024, read at (p, j), is the block at (p, g · 1024 + j). -/
theorem gate_slice (v : FVec Ideal S512x4096 .f32) (off : Nat) (hs : S512x4096.Slices ![0, off] S512x1024) (g : Fin 4)
    (hoff : off = g.val * 1024) (p : Fin 512) (j : Fin 1024) :
    extractStridedSlice S512x1024 ![0, off] v hs (ix2 p j) = v (ix2 p (col g j)) :=
  extractStridedSlice_apply ![0, off] v hs (ix2 p j) (ix2 p (col g j)) (fun a => match a with
    | ⟨0, _⟩ => by show p.val = 0 + p.val; omega
    | ⟨1, _⟩ => by show g.val * 1024 + j.val = off + j.val; omega)

section point

variable (x h cprev : FVec Ideal S4096x1024 .f32) (Wx Wh : FVec Ideal S4x1024x1024 .f32) (bx bh : FVec Ideal S4x1024 .f32)
  (X H C : FVec Ideal S512x1024 .f32) (A B : FVec Ideal S1024x4096 .bf16) (r : FVec Ideal S1x4096 .f32)
  (row : Fin 512 → Fin 4096)
  (hX : ∀ (p : Fin 512) (k : Fin 1024), X (ix2 p k) = x (ix2 (row p) k))
  (hH : ∀ (p : Fin 512) (k : Fin 1024), H (ix2 p k) = h (ix2 (row p) k))
  (hC : ∀ (p : Fin 512) (k : Fin 1024), C (ix2 p k) = cprev (ix2 (row p) k))
  (hA : ∀ (k : Fin 1024) (g : Fin 4) (j : Fin 1024), A (ix2 k (col g j)) = Wx (ix3 g j k))
  (hB : ∀ (k : Fin 1024) (g : Fin 4) (j : Fin 1024), B (ix2 k (col g j)) = Wh (ix3 g j k))
  (hr : ∀ (g : Fin 4) (j : Fin 1024), r (ix2 (0 : Fin 1) (col g j)) = bx (ix2 g j) + bh (ix2 g j))

include hX hH hA hB hr in
/-- Entry (p, g · 1024 + j) of the pre-activation block is the pre-activation of gate g at row `row p`, unit j. -/
theorem preact_point (p : Fin 512) (g : Fin 4) (j : Fin 1024) :
    k0_pay1 (F := Ideal) X H A B r (ix2 p (col g j)) = pre x h Wx Wh bx bh g (row p) j := by
  rw [preact_apply X H A B r p (col g j) 0]
  unfold pre
  simp only [hX, hH, hA, hB, hr]

/-- The stored output-gate block as the body's operations. -/
theorem out_tree : k0_pay2 (F := Ideal) X H A B r
    = logistic (extractStridedSlice S512x1024 ![0, 3072] (k0_pay1 X H A B r) slices_S512x4096_o0_3072_S512x1024) := rfl

/-- The stored cell block as the body's operations. -/
theorem cell_tree : k0_pay3 (F := Ideal) X H C A B r
    = addf (mulf (logistic (extractStridedSlice S512x1024 ![0, 1024] (k0_pay1 X H A B r) slices_S512x4096_o0_1024_S512x1024)) C)
        (mulf (logistic (extractStridedSlice S512x1024 ![0, 0] (k0_pay1 X H A B r) slices_S512x4096_o0_0_S512x1024))
          (tanh (extractStridedSlice S512x1024 ![0, 2048] (k0_pay1 X H A B r) slices_S512x4096_o0_2048_S512x1024))) := rfl

/-- The stored hidden block as the body's operations. -/
theorem hidden_tree : k0_pay4 (F := Ideal) X H C A B r
    = mulf (k0_pay2 X H A B r) (tanh (k0_pay3 X H C A B r)) := rfl

include hX hH hA hB hr in
/-- The stored output-gate block, entry (p, j), is the output gate at row `row p`, unit j. -/
theorem out_point (p : Fin 512) (j : Fin 1024) :
    k0_pay2 (F := Ideal) X H A B r (ix2 p j) = outGate x h Wx Wh bx bh (ix2 (row p) j) := by
  rw [out_tree]
  show Ideal.logistic (extractStridedSlice S512x1024 ![0, 3072] (k0_pay1 (F := Ideal) X H A B r)
    slices_S512x4096_o0_3072_S512x1024 (ix2 p j)) = Ideal.logistic (pre x h Wx Wh bx bh 3 (row p) j)
  rw [gate_slice _ 3072 _ 3 rfl p j, preact_point x h Wx Wh bx bh X H A B r row hX hH hA hB hr p 3 j]

include hX hH hC hA hB hr in
/-- The stored cell block, entry (p, j), is the new cell state at row `row p`, unit j. -/
theorem cell_point (p : Fin 512) (j : Fin 1024) :
    k0_pay3 (F := Ideal) X H C A B r (ix2 p j) = cell x h Wx Wh bx bh cprev (ix2 (row p) j) := by
  rw [cell_tree]
  show Ideal.logistic (extractStridedSlice S512x1024 ![0, 1024] (k0_pay1 (F := Ideal) X H A B r)
        slices_S512x4096_o0_1024_S512x1024 (ix2 p j)) * C (ix2 p j)
      + Ideal.logistic (extractStridedSlice S512x1024 ![0, 0] (k0_pay1 (F := Ideal) X H A B r)
        slices_S512x4096_o0_0_S512x1024 (ix2 p j))
        * Ideal.tanh (extractStridedSlice S512x1024 ![0, 2048] (k0_pay1 (F := Ideal) X H A B r)
        slices_S512x4096_o0_2048_S512x1024 (ix2 p j))
    = Ideal.logistic (pre x h Wx Wh bx bh 1 (row p) j) * cprev (ix2 (row p) j)
      + Ideal.logistic (pre x h Wx Wh bx bh 0 (row p) j) * Ideal.tanh (pre x h Wx Wh bx bh 2 (row p) j)
  rw [gate_slice _ 1024 _ 1 rfl p j, gate_slice _ 0 _ 0 rfl p j, gate_slice _ 2048 _ 2 rfl p j,
    preact_point x h Wx Wh bx bh X H A B r row hX hH hA hB hr p 1 j,
    preact_point x h Wx Wh bx bh X H A B r row hX hH hA hB hr p 0 j,
    preact_point x h Wx Wh bx bh X H A B r row hX hH hA hB hr p 2 j, hC p j]

include hX hH hC hA hB hr in
/-- The stored hidden block, entry (p, j), is the new hidden state at row `row p`, unit j. -/
theorem hidden_point (p : Fin 512) (j : Fin 1024) :
    k0_pay4 (F := Ideal) X H C A B r (ix2 p j) = hidden x h Wx Wh bx bh cprev (ix2 (row p) j) := by
  rw [hidden_tree]
  show k0_pay2 (F := Ideal) X H A B r (ix2 p j) * Ideal.tanh (k0_pay3 (F := Ideal) X H C A B r (ix2 p j))
    = outGate x h Wx Wh bx bh (ix2 (row p) j) * Ideal.tanh (cell x h Wx Wh bx bh cprev (ix2 (row p) j))
  rw [out_point x h Wx Wh bx bh X H A B r row hX hH hA hB hr p j,
    cell_point x h cprev Wx Wh bx bh X H C A B r row hX hH hC hA hB hr p j]

end point

end Cert.LstmCell.Kernel

end
-- ==== Proof.LstmWeights.lean ====
/-
  What the region finds in the three arrays the program prepares for it.

  Before the grid runs, each weight array W (gate, hidden unit, feature) is re-laid as a matrix with one row per feature
  and 4096 columns: the axes are permuted to (feature, gate, hidden unit) and the last two are merged, so column
  g · 1024 + j of row k holds W(g, j, k) — the four gates side by side, 1024 columns each. Narrowing it to fewer bits
  keeps every exact value. The two biases are added and the sum (gate, hidden unit) is laid out as one row of 4096
  entries, entry g · 1024 + j holding bx(g, j) + bh(g, j).
-/
import proofs.«113566_j9131100472067_2_alg».proof.Proof.Gen.KernelIdeal.Frame
import proofs.«113566_j9131100472067_2_alg».proof.Proof.LstmLayout
import Idealize.ShloMosaic.Lib.Pipeline.Value
import Idealize.ShloMosaic.Lib.ValueIdx
import Idealize.ShloMosaic.Lib.StableHlo.Run

noncomputable section

namespace Cert.LstmCell.Kernel

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The seven argument arrays, as launched, typed by their shapes. -/
abbrev argX (c : Dev nD) : FVec Ideal S4096x1024 .f32 := m ((c : Thread nD τ).loc main_arg0)
abbrev argH (c : Dev nD) : FVec Ideal S4096x1024 .f32 := m ((c : Thread nD τ).loc main_arg1)
abbrev argC (c : Dev nD) : FVec Ideal S4096x1024 .f32 := m ((c : Thread nD τ).loc main_arg2)
abbrev argWx (c : Dev nD) : FVec Ideal S4x1024x1024 .f32 := m ((c : Thread nD τ).loc main_arg3)
abbrev argWh (c : Dev nD) : FVec Ideal S4x1024x1024 .f32 := m ((c : Thread nD τ).loc main_arg4)
abbrev argBx (c : Dev nD) : FVec Ideal S4x1024 .f32 := m ((c : Thread nD τ).loc main_arg5)
abbrev argBh (c : Dev nD) : FVec Ideal S4x1024 .f32 := m ((c : Thread nD τ).loc main_arg6)

/-- The fused weight matrix of `x` as the program builds it. -/
theorem fusedWx_term (c : Dev nD) :
    @Eq (FVec Ideal S1024x4096 .bf16) (V m c main_v2)
      (truncf .bf16 (shapeCast S1024x4096 (transpose S1024x4x1024 [2, 0, 1] (argWx m c)
          transposes_S4x1024x1024_S1024x4x1024_2_0_1) shapeCasts_S1024x4x1024_S1024x4096) bitsLt_bf16_f32) := by
  dsimp only [V, hostOps0]; after_results; rfl

/-- The fused weight matrix of `h` as the program builds it. -/
theorem fusedWh_term (c : Dev nD) :
    @Eq (FVec Ideal S1024x4096 .bf16) (V m c main_v5)
      (truncf .bf16 (shapeCast S1024x4096 (transpose S1024x4x1024 [2, 0, 1] (argWh m c)
          transposes_S4x1024x1024_S1024x4x1024_2_0_1) shapeCasts_S1024x4x1024_S1024x4096) bitsLt_bf16_f32) := by
  dsimp only [V, hostOps0]; after_results; rfl

/-- The fused bias row as the program builds it. -/
theorem fusedBias_term (c : Dev nD) :
    @Eq (FVec Ideal S1x4096 .f32) (V m c main_v7)
      (shapeCast S1x4096 (addf (argBx m c) (argBh m c)) shapeCasts_S4x1024_S1x4096) := by
  dsimp only [V, hostOps0]; after_results; rfl

/-- A weight array re-laid (feature, gate · 1024 + hidden unit), read at an entry. -/
theorem relaid_apply (W : FVec Ideal S4x1024x1024 .f32) (k : Fin 1024) (g : Fin 4) (j : Fin 1024) :
    truncf .bf16 (shapeCast S1024x4096 (transpose S1024x4x1024 [2, 0, 1] W transposes_S4x1024x1024_S1024x4x1024_2_0_1)
        shapeCasts_S1024x4x1024_S1024x4096) bitsLt_bf16_f32 (ix2 k (col g j)) = W (ix3 g j k) := by
  refine (truncf_apply (ψ := .bf16) (φ := .f32) _ bitsLt_bf16_f32 _).trans ?_
  refine (shapeCast_apply _ shapeCasts_S1024x4x1024_S1024x4096 (ix2 k (col g j)) (ix3 k g j) ?_).trans ?_
  · rw [Shape.rowMajor_val_three, Shape.rowMajor_val_two]
    show (k.val * 4 + g.val) * 1024 + j.val = k.val * 4096 + (g.val * 1024 + j.val)
    omega
  · exact transpose_apply [2, 0, 1] W transposes_S4x1024x1024_S1024x4x1024_2_0_1 (ix3 k g j) (ix3 g j k) (fun b => match b with
      | ⟨0, _⟩ => rfl
      | ⟨1, _⟩ => rfl
      | ⟨2, _⟩ => rfl)

/-- Column g · 1024 + j of row k of the fused weight matrix of `x` is Wx(g, j, k). -/
theorem fusedWx_apply (c : Dev nD) (k : Fin 1024) (g : Fin 4) (j : Fin 1024) :
    (V m c main_v2 : FVec Ideal S1024x4096 .bf16) (ix2 k (col g j)) = argWx m c (ix3 g j k) := by
  rw [fusedWx_term]; exact relaid_apply _ k g j

/-- Column g · 1024 + j of row k of the fused weight matrix of `h` is Wh(g, j, k). -/
theorem fusedWh_apply (c : Dev nD) (k : Fin 1024) (g : Fin 4) (j : Fin 1024) :
    (V m c main_v5 : FVec Ideal S1024x4096 .bf16) (ix2 k (col g j)) = argWh m c (ix3 g j k) := by
  rw [fusedWh_term]; exact relaid_apply _ k g j

/-- Entry g · 1024 + j of the fused bias row is bx(g, j) + bh(g, j). -/
theorem fusedBias_apply (c : Dev nD) (u : Fin 1) (g : Fin 4) (j : Fin 1024) :
    (V m c main_v7 : FVec Ideal S1x4096 .f32) (ix2 u (col g j)) = argBx m c (ix2 g j) + argBh m c (ix2 g j) := by
  rw [fusedBias_term]
  refine (shapeCast_apply _ shapeCasts_S4x1024_S1x4096 (ix2 u (col g j)) (ix2 g j) ?_).trans (addf_apply _ _ _)
  rw [Shape.rowMajor_val_two, Shape.rowMajor_val_two]
  show g.val * 1024 + j.val = u.val * 4096 + (g.val * 1024 + j.val)
  have hu : u.val = 0 := by have := u.isLt; omega
  omega

end Cert.LstmCell.Kernel

end
-- ==== Proof.LstmArray.lean ====
/-
  From the grid's blocks to the three result arrays.

  The grid has 8 points; point t works on batch rows 512 t, …, 512 t + 511. Its blocks of `x`, `h` and the old cell
  state are those rows of the argument arrays, the fused weight matrices and the fused bias row are the same whole
  arrays at every point, and it writes rows 512 t, …, 512 t + 511 of each result. So what point t writes back is
  those rows of the specification's output gate, new hidden state and new cell state; the 8 row blocks cover all
  4096 rows (row b lies in block b / 512), and so each result array ends holding the specification's function.
-/
import proofs.«113566_j9131100472067_2_alg».proof.Proof.Gen.KernelIdeal.Value
import proofs.«113566_j9131100472067_2_alg».proof.Proof.LstmPoint
import proofs.«113566_j9131100472067_2_alg».proof.Proof.LstmWeights

noncomputable section

namespace Cert.LstmCell.Kernel

open Cert.KernelIdeal Cert.KernelIdeal.Gen Idealize.ShloMosaic Idealize.ShloMosaic.TcCoe Idealize.SL.Sem
open Idealize.ShloMosaic.Pipeline (Dat)
open Idealize.ShloMosaic.ValueIdx Cert.LstmCell

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the row windows (the three inputs and the three results) sit at block row t,
    block column 0; the weight and bias windows sit at block (0, 0) at every point. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem point_lt (t : Fin cfg0.N) : t.val < 8 := Nat.lt_of_lt_of_eq t.isLt N_0

/-- The batch row that row p of point t's blocks is. -/
def rowOf (t : Fin cfg0.N) (p : Fin 512) : Fin 4096 :=
  ⟨512 * t.val + p.val, by have ht := point_lt t; have hp : p.val < 512 := p.isLt; omega⟩

/-! ## The input blocks at a point -/

/-- Point t's block of `x` is rows 512 t onward of `x`. -/
theorem block_x (c : Dev nD) (t : Fin cfg0.N) (p : Fin 512) (k : Fin 1024) :
    (iblk m c 0 t : FVec Ideal S512x1024 .f32) (ix2 p k) = argX m c (ix2 (rowOf t p) k) := by
  obtain ⟨⟨e0, e1⟩, -⟩ := index_facts t
  unfold iblk
  rw [View.read_apply]
  refine (congrFun (V_main_arg0 m c) _).trans (congrArg (argX m c) ?_)
  funext a; apply Fin.ext
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

/-- Point t's block of `h` is rows 512 t onward of `h`. -/
theorem block_h (c : Dev nD) (t : Fin cfg0.N) (p : Fin 512) (k : Fin 1024) :
    (iblk m c 1 t : FVec Ideal S512x1024 .f32) (ix2 p k) = argH m c (ix2 (rowOf t p) k) := by
  obtain ⟨-, ⟨e0, e1⟩, -⟩ := index_facts t
  unfold iblk
  rw [View.read_apply]
  refine (congrFun (V_main_arg1 m c) _).trans (congrArg (argH m c) ?_)
  funext a; apply Fin.ext
  match a with
  | ⟨0, _⟩ => show win0_1.index t (0 : Fin 2) * 512 + 1 * p.val = 512 * t.val + p.val; rw [e0]; omega
  | ⟨1, _⟩ => show win0_1.index t (1 : Fin 2) * 1024 + 1 * k.val = k.val; rw [e1]; omega

/-- Point t's block of the old cell state is rows 512 t onward of it. -/
theorem block_c (c : Dev nD) (t : Fin cfg0.N) (p : Fin 512) (k : Fin 1024) :
    (iblk m c 2 t : FVec Ideal S512x1024 .f32) (ix2 p k) = argC m c (ix2 (rowOf t p) k) := by
  obtain ⟨-, -, ⟨e0, e1⟩, -⟩ := index_facts t
  unfold iblk
  rw [View.read_apply]
  refine (congrFun (V_main_arg2 m c) _).trans (congrArg (argC m c) ?_)
  funext a; apply Fin.ext
  match a with
  | ⟨0, _⟩ => show win0_2.index t (0 : Fin 2) * 512 + 1 * p.val = 512 * t.val + p.val; rw [e0]; omega
  | ⟨1, _⟩ => show win0_2.index t (1 : Fin 2) * 1024 + 1 * k.val = k.val; rw [e1]; omega

/-- At every point the block of the fused weight matrix of `x` is the whole matrix. -/
theorem block_wx (c : Dev nD) (t : Fin cfg0.N) (k : Fin 1024) (g : Fin 4) (j : Fin 1024) :
    (iblk m c 3 t : FVec Ideal S1024x4096 .bf16) (ix2 k (col g j)) = argWx m c (ix3 g j k) := by
  obtain ⟨-, -, -, ⟨e0, e1⟩, -⟩ := index_facts t
  unfold iblk
  rw [View.read_apply]
  refine Eq.trans (congrArg (V m c main_v2 : FVec Ideal S1024x4096 .bf16) ?_) (fusedWx_apply m c k g j)
  funext a; apply Fin.ext
  match a with
  | ⟨0, _⟩ => show win0_3.index t (0 : Fin 2) * 1024 + 1 * k.val = k.val; rw [e0]; omega
  | ⟨1, _⟩ => show win0_3.index t (1 : Fin 2) * 4096 + 1 * (col g j).val = (col g j).val; rw [e1]; omega

/-- At every point the block of the fused weight matrix of `h` is the whole matrix. -/
theorem block_wh (c : Dev nD) (t : Fin cfg0.N) (k : Fin 1024) (g : Fin 4) (j : Fin 1024) :
    (iblk m c 4 t : FVec Ideal S1024x4096 .bf16) (ix2 k (col g j)) = argWh m c (ix3 g j k) := by
  obtain ⟨-, -, -, -, ⟨e0, e1⟩, -⟩ := index_facts t
  unfold iblk
  rw [View.read_apply]
  refine Eq.trans (congrArg (V m c main_v5 : FVec Ideal S1024x4096 .bf16) ?_) (fusedWh_apply m c k g j)
  funext a; apply Fin.ext
  match a with
  | ⟨0, _⟩ => show win0_4.index t (0 : Fin 2) * 1024 + 1 * k.val = k.val; rw [e0]; omega
  | ⟨1, _⟩ => show win0_4.index t (1 : Fin 2) * 4096 + 1 * (col g j).val = (col g j).val; rw [e1]; omega

/-- At every point the block of the fused bias row is the whole row. -/
theorem block_bias (c : Dev nD) (t : Fin cfg0.N) (g : Fin 4) (j : Fin 1024) :
    (iblk m c 5 t : FVec Ideal S1x4096 .f32) (ix2 (0 : Fin 1) (col g j)) = argBx m c (ix2 g j) + argBh m c (ix2 g j) := by
  obtain ⟨-, -, -, -, -, ⟨e0, e1⟩, -⟩ := index_facts t
  unfold iblk
  rw [View.read_apply]
  refine Eq.trans (congrArg (V m c main_v7 : FVec Ideal S1x4096 .f32) ?_) (fusedBias_apply m c 0 g j)
  funext a; apply Fin.ext
  match a with
  | ⟨0, _⟩ => show win0_5.index t (0 : Fin 2) * 1 + 1 * (0 : Fin 1).val = (0 : Fin 1).val; rw [e0]; rfl
  | ⟨1, _⟩ => show win0_5.index t (1 : Fin 2) * 4096 + 1 * (col g j).val = (col g j).val; rw [e1]; omega

/-! ## What each point writes back -/

/-- The three specification functions of the argument arrays. -/
abbrev specOut (c : Dev nD) : FVec Ideal S4096x1024 .f32 :=
  outGate (argX m c) (argH m c) (argWx m c) (argWh m c) (argBx m c) (argBh m c)
abbrev specCell (c : Dev nD) : FVec Ideal S4096x1024 .f32 :=
  cell (argX m c) (argH m c) (argWx m c) (argWh m c) (argBx m c) (argBh m c) (argC m c)
abbrev specHidden (c : Dev nD) : FVec Ideal S4096x1024 .f32 :=
  hidden (argX m c) (argH m c) (argWx m c) (argWh m c) (argBx m c) (argBh m c) (argC m c)

/-- Point t writes back rows 512 t onward of the output gate. -/
theorem flushed_out (c : Dev nD) (t : Fin cfg0.N) :
    (dats m 0 c).flushed 6 t = ((cfg0.win 6).blk t).view.read (Elt Ideal) (specOut m c) := by
  obtain ⟨-, -, -, -, -, -, ⟨e0, e1⟩, -⟩ := index_facts t
  rw [Value.flushed6]
  unfold out0_6
  rw [View.canon_unit_zero zero_offsets]
  simp only [View.ld_unit_zero (S := S512x1024) zero_offsets, View.ld_unit_zero (S := S1024x4096) zero_offsets,
    View.ld_unit_zero (S := S1x4096) zero_offsets]
  funext y
  show k0_pay2 (iblk m c 0 t) (iblk m c 1 t) (iblk m c 3 t) (iblk m c 4 t) (iblk m c 5 t) y
    = specOut m c (((cfg0.win 6).blk t).view.emb y)
  obtain ⟨p, j, rfl⟩ : ∃ (p : Fin 512) (j : Fin 1024), y = ix2 p j := ⟨y 0, y 1, eq_ix2 y⟩
  have e : ((cfg0.win 6).blk t).view.emb (ix2 p j) = ix2 (rowOf t p) j := by
    funext a; apply Fin.ext
    match a with
    | ⟨0, _⟩ => show win0_6.index t (0 : Fin 2) * 512 + 1 * p.val = 512 * t.val + p.val; rw [e0]; omega
    | ⟨1, _⟩ => show win0_6.index t (1 : Fin 2) * 1024 + 1 * j.val = j.val; rw [e1]; omega
  rw [e]
  exact out_point (argX m c) (argH m c) (argWx m c) (argWh m c) (argBx m c) (argBh m c)
    (iblk m c 0 t) (iblk m c 1 t) (iblk m c 3 t) (iblk m c 4 t) (iblk m c 5 t) (rowOf t)
    (block_x m c t) (block_h m c t) (block_wx m c t) (block_wh m c t) (block_bias m c t) p j

/-- Point t writes back rows 512 t onward of the new hidden state. -/
theorem flushed_hidden (c : Dev nD) (t : Fin cfg0.N) :
    (dats m 0 c).flushed 7 t = ((cfg0.win 7).blk t).view.read (Elt Ideal) (specHidden m c) := by
  obtain ⟨-, -, -, -, -, -, -, ⟨e0, e1⟩, -⟩ := index_facts t
  rw [Value.flushed7]
  unfold out0_7
  rw [View.canon_unit_zero zero_offsets]
  simp only [View.ld_unit_zero (S := S512x1024) zero_offsets, View.ld_unit_zero (S := S1024x4096) zero_offsets,
    View.ld_unit_zero (S := S1x4096) zero_offsets]
  funext y
  show k0_pay4 (iblk m c 0 t) (iblk m c 1 t) (iblk m c 2 t) (iblk m c 3 t) (iblk m c 4 t) (iblk m c 5 t) y
    = specHidden m c (((cfg0.win 7).blk t).view.emb y)
  obtain ⟨p, j, rfl⟩ : ∃ (p : Fin 512) (j : Fin 1024), y = ix2 p j := ⟨y 0, y 1, eq_ix2 y⟩
  have e : ((cfg0.win 7).blk t).view.emb (ix2 p j) = ix2 (rowOf t p) j := by
    funext a; apply Fin.ext
    match a with
    | ⟨0, _⟩ => show win0_7.index t (0 : Fin 2) * 512 + 1 * p.val = 512 * t.val + p.val; rw [e0]; omega
    | ⟨1, _⟩ => show win0_7.index t (1 : Fin 2) * 1024 + 1 * j.val = j.val; rw [e1]; omega
  rw [e]
  exact hidden_point (argX m c) (argH m c) (argC m c) (argWx m c) (argWh m c) (argBx m c) (argBh m c)
    (iblk m c 0 t) (iblk m c 1 t) (iblk m c 2 t) (iblk m c 3 t) (iblk m c 4 t) (iblk m c 5 t) (rowOf t)
    (block_x m c t) (block_h m c t) (block_c m c t) (block_wx m c t) (block_wh m c t) (block_bias m c t) p j

/-- Point t writes back rows 512 t onward of the new cell state. -/
theorem flushed_cell (c : Dev nD) (t : Fin cfg0.N) :
    (dats m 0 c).flushed 8 t = ((cfg0.win 8).blk t).view.read (Elt Ideal) (specCell m c) := by
  obtain ⟨-, -, -, -, -, -, -, -, ⟨e0, e1⟩⟩ := index_facts t
  rw [Value.flushed8]
  unfold out0_8
  rw [View.canon_unit_zero zero_offsets]
  simp only [View.ld_unit_zero (S := S512x1024) zero_offsets, View.ld_unit_zero (S := S1024x4096) zero_offsets,
    View.ld_unit_zero (S := S1x4096) zero_offsets]
  funext y
  show k0_pay3 (iblk m c 0 t) (iblk m c 1 t) (iblk m c 2 t) (iblk m c 3 t) (iblk m c 4 t) (iblk m c 5 t) y
    = specCell m c (((cfg0.win 8).blk t).view.emb y)
  obtain ⟨p, j, rfl⟩ : ∃ (p : Fin 512) (j : Fin 1024), y = ix2 p j := ⟨y 0, y 1, eq_ix2 y⟩
  have e : ((cfg0.win 8).blk t).view.emb (ix2 p j) = ix2 (rowOf t p) j := by
    funext a; apply Fin.ext
    match a with
    | ⟨0, _⟩ => show win0_8.index t (0 : Fin 2) * 512 + 1 * p.val = 512 * t.val + p.val; rw [e0]; omega
    | ⟨1, _⟩ => show win0_8.index t (1 : Fin 2) * 1024 + 1 * j.val = j.val; rw [e1]; omega
  rw [e]
  exact cell_point (argX m c) (argH m c) (argC m c) (argWx m c) (argWh m c) (argBx m c) (argBh m c)
    (iblk m c 0 t) (iblk m c 1 t) (iblk m c 2 t) (iblk m c 3 t) (iblk m c 4 t) (iblk m c 5 t) (rowOf t)
    (block_x m c t) (block_h m c t) (block_c m c t) (block_wx m c t) (block_wh m c t) (block_bias m c t) p j

/-! ## The row blocks cover the arrays -/

/-- The point whose row block holds batch row b: b / 512. -/
def pointOf (i : S4096x1024.Idx) : Fin cfg0.N :=
  ⟨(i 0).val / 512, by rw [show cfg0.N = 8 from N_0]; have h : (i 0).val < 4096 := (i 0).isLt; omega⟩

theorem cover_out (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨-, -, -, -, -, -, ⟨e0, e1⟩, -⟩ := index_facts (pointOf i)
  refine ⟨pointOf i, flush0_6 _, ?_⟩
  show i ∈ ((View.whole main_v8_0).slice (win0_6.rect (pointOf i))).set
  rw [View.set_slice_whole, Rect.mem_set_unit]
  intro a
  match a with
  | ⟨0, _⟩ =>
    show win0_6.index (pointOf i) (0 : Fin 2) * 512 ≤ (i 0).val ∧ (i 0).val < win0_6.index (pointOf i) (0 : Fin 2) * 512 + 512
    rw [e0]; show (i 0).val / 512 * 512 ≤ (i 0).val ∧ (i 0).val < (i 0).val / 512 * 512 + 512; omega
  | ⟨1, _⟩ =>
    show win0_6.index (pointOf i) (1 : Fin 2) * 1024 ≤ (i 1).val ∧ (i 1).val < win0_6.index (pointOf i) (1 : Fin 2) * 1024 + 1024
    rw [e1]; omega

theorem cover_hidden (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  obtain ⟨-, -, -, -, -, -, -, ⟨e0, e1⟩, -⟩ := index_facts (pointOf i)
  refine ⟨pointOf i, flush0_7 _, ?_⟩
  show i ∈ ((View.whole main_v8_1).slice (win0_7.rect (pointOf i))).set
  rw [View.set_slice_whole, Rect.mem_set_unit]
  intro a
  match a with
  | ⟨0, _⟩ =>
    show win0_7.index (pointOf i) (0 : Fin 2) * 512 ≤ (i 0).val ∧ (i 0).val < win0_7.index (pointOf i) (0 : Fin 2) * 512 + 512
    rw [e0]; show (i 0).val / 512 * 512 ≤ (i 0).val ∧ (i 0).val < (i 0).val / 512 * 512 + 512; omega
  | ⟨1, _⟩ =>
    show win0_7.index (pointOf i) (1 : Fin 2) * 1024 ≤ (i 1).val ∧ (i 1).val < win0_7.index (pointOf i) (1 : Fin 2) * 1024 + 1024
    rw [e1]; omega

theorem cover_cell (i : S4096x1024.Idx) :
    ∃ t : Fin cfg0.N, (cfg0.win 8).flush t = true ∧ i ∈ ((cfg0.win 8).blk t).view.set := by
  have hi0 : (i 0).val < 4096 := (i 0).isLt
  have hi1 : (i 1).val < 1024 := (i 1).isLt
  obtain ⟨-, -, -, -, -, -, -, -, ⟨e0, e1⟩⟩ := index_facts (pointOf i)
  refine ⟨pointOf i, flush0_8 _, ?_⟩
  show i ∈ ((View.whole main_v8_2).slice (win0_8.rect (pointOf i))).set
  rw [View.set_slice_whole, Rect.mem_set_unit]
  intro a
  match a with
  | ⟨0, _⟩ =>
    show win0_8.index (pointOf i) (0 : Fin 2) * 512 ≤ (i 0).val ∧ (i 0).val < win0_8.index (pointOf i) (0 : Fin 2) * 512 + 512
    rw [e0]; show (i 0).val / 512 * 512 ≤ (i 0).val ∧ (i 0).val < (i 0).val / 512 * 512 + 512; omega
  | ⟨1, _⟩ =>
    show win0_8.index (pointOf i) (1 : Fin 2) * 1024 ≤ (i 1).val ∧ (i 1).val < win0_8.index (pointOf i) (1 : Fin 2) * 1024 + 1024
    rw [e1]; omega

/-! ## The result arrays, and the run -/

theorem final_out (c : Dev nD) : (dats m 0 c).arrAt 6 cfg0.N = specOut m c :=
  (dats m 0 c).arrAt_eq_of_cover 6 (specOut m c) (fun t _ => flushed_out m c t) cover_out

theorem final_hidden (c : Dev nD) : (dats m 0 c).arrAt 7 cfg0.N = specHidden m c :=
  (dats m 0 c).arrAt_eq_of_cover 7 (specHidden m c) (fun t _ => flushed_hidden m c t) cover_hidden

theorem final_cell (c : Dev nD) : (dats m 0 c).arrAt 8 cfg0.N = specCell m c :=
  (dats m 0 c).arrAt_eq_of_cover 8 (specCell m c) (fun t _ => flushed_cell m c t) cover_cell

/-- Every weakly fair execution of the kernel program terminates with the three result arrays at the specification's
    output gate, new hidden state and new cell state of the argument arrays, and the arguments unchanged. -/
theorem run : θ_run defs (onTc (τ := τ) (main (F := Ideal))) ⟨m, fun _ => 0, ρ⟩ fun r => ∀ c : Dev nD,
      r.2.mem ((c : Thread nD τ).loc main_v8_0) = specOut m c
      ∧ r.2.mem ((c : Thread nD τ).loc main_v8_1) = specHidden m c
      ∧ r.2.mem ((c : Thread nD τ).loc main_v8_2) = specCell m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_out m c), (h c).2.1.trans (final_hidden m c),
      (h c).2.2.1.trans (final_cell m c), (h c).2.2.2⟩)
    (Value.run_blocks m ρ)

end Cert.LstmCell.Kernel

end
-- ==== Proof.LstmReference.lean ====
/-
  The reference program computes the cell step of the specification.

  The reference forms all four gates' pre-activations at once, as one array indexed (gate, batch row, hidden unit):
  two contractions over the feature axis — each weight array times the matching input, then the result's last two axes
  exchanged — are added, and the bias sum is spread over the batch rows and added. Its entry (g, b, j) is `pre g b j`:
  the contraction puts the weight on the left of each product where the specification puts it on the right, and
  multiplication of extended reals is commutative.

  Gate `g` is then cut out as the slab [g, :, :] and viewed as a matrix, so entry (b, j) of that matrix is
  `pre g b j`. The logistic function is spelled 1 / (1 + e^(-t)) with the constant one; that is the logistic function
  of the extended reals, including at ±∞. The rest is entry by entry.
-/
import proofs.«113566_j9131100472067_2_alg».proof.Proof.Gen.ReferenceIdeal.Read
import proofs.«113566_j9131100472067_2_alg».proof.Proof.LstmSpec
import Idealize.ShloMosaic.Lib.IdealHost

noncomputable section

open scoped BigOperators

namespace Cert.LstmCell.Reference

open Cert.ReferenceIdeal Cert.ReferenceIdeal.Read Idealize.ShloMosaic Idealize.ShloMosaic.ValueIdx Cert.LstmCell

variable (x0 x1 x2 : (⟨S4096x1024, .f32⟩ : BufTy).Contents (Elt Ideal))
  (x3 x4 : (⟨S4x1024x1024, .f32⟩ : BufTy).Contents (Elt Ideal)) (x5 x6 : (⟨S4x1024, .f32⟩ : BufTy).Contents (Elt Ideal))

/-- Entry (g, b, j) of the array of all pre-activations is `pre g b j`. -/
theorem stage_pre (g : Fin 4) (b : Fin 4096) (j : Fin 1024) :
    val_main_v8 (F := Ideal) x0 x1 x3 x4 x5 x6 (ix3 g b j) = pre x0 x1 x3 x4 x5 x6 g b j := by
  rw [val_main_v8_apply, val_main_v4_apply, val_main_v1_apply, val_main_v3_apply, val_main_v0_apply, val_main_v2_apply,
    val_main_v7_apply, val_main_v6_apply, val_main_v5_apply]
  simp only [Ideal.addf_def]
  unfold pre
  have eL : ∀ k : Fin 1024, lidx_main_v0 (idx_main_v1 (ix3 g b j)) k = ix3 g j k := fun k => funext fun a => by
    match a with | ⟨0, _⟩ => rfl | ⟨1, _⟩ => rfl | ⟨2, _⟩ => rfl
  have eR : ∀ k : Fin 1024, ridx_main_v0 (idx_main_v1 (ix3 g b j)) k = ix2 b k := fun k => funext fun a => by
    match a with | ⟨0, _⟩ => rfl | ⟨1, _⟩ => rfl
  have eL' : ∀ k : Fin 1024, lidx_main_v2 (idx_main_v3 (ix3 g b j)) k = ix3 g j k := fun k => funext fun a => by
    match a with | ⟨0, _⟩ => rfl | ⟨1, _⟩ => rfl | ⟨2, _⟩ => rfl
  have eR' : ∀ k : Fin 1024, ridx_main_v2 (idx_main_v3 (ix3 g b j)) k = ix2 b k := fun k => funext fun a => by
    match a with | ⟨0, _⟩ => rfl | ⟨1, _⟩ => rfl
  have eB : idx_main_v6 (idx_main_v7 (ix3 g b j)) = ix2 g j := funext fun a => by
    match a with | ⟨0, _⟩ => rfl | ⟨1, _⟩ => rfl
  simp only [eL, eR, eL', eR', eB]
  refine congrArg₂ (· + ·) (congrArg₂ (· + ·) (Finset.sum_congr rfl fun k _ => mul_comm _ _)
    (Finset.sum_congr rfl fun k _ => mul_comm _ _)) rfl

/-- Row-major position (b, j) of a matrix with 1024 columns, divided and reduced by 1024, gives back b and j. -/
theorem row_col (b : Fin 4096) (j : Fin 1024) :
    (b.val * 1024 + j.val) / 1024 % 4096 = b.val ∧ (b.val * 1024 + j.val) % 1024 = j.val := by
  have h0 : b.val < 4096 := b.isLt
  have h1 : j.val < 1024 := j.isLt
  omega

/-- The slab of gate 0, as a matrix. -/
theorem gate0 (b : Fin 4096) (j : Fin 1024) :
    val_main_v10 (F := Ideal) x0 x1 x3 x4 x5 x6 (ix2 b j) = pre x0 x1 x3 x4 x5 x6 0 b j := by
  rw [val_main_v10_apply, val_main_v9_apply]
  have e : idx_main_v9 (idx_main_v10 (ix2 b j)) = ix3 0 b j := funext fun a => Fin.ext (by
    match a with | ⟨0, _⟩ => rfl | ⟨1, _⟩ => exact (row_col b j).1 | ⟨2, _⟩ => exact (row_col b j).2)
  rw [e, stage_pre]

/-- The slab of gate 1, as a matrix. -/
theorem gate1 (b : Fin 4096) (j : Fin 1024) :
    val_main_v18 (F := Ideal) x0 x1 x3 x4 x5 x6 (ix2 b j) = pre x0 x1 x3 x4 x5 x6 1 b j := by
  rw [val_main_v18_apply, val_main_v17_apply]
  have e : idx_main_v17 (idx_main_v18 (ix2 b j)) = ix3 1 b j := funext fun a => Fin.ext (by
    match a with | ⟨0, _⟩ => rfl | ⟨1, _⟩ => exact (row_col b j).1 | ⟨2, _⟩ => exact (row_col b j).2)
  rw [e, stage_pre]

/-- The slab of gate 2, as a matrix. -/
theorem gate2 (b : Fin 4096) (j : Fin 1024) :
    val_main_v26 (F := Ideal) x0 x1 x3 x4 x5 x6 (ix2 b j) = pre x0 x1 x3 x4 x5 x6 2 b j := by
  rw [val_main_v26_apply, val_main_v25_apply]
  have e : idx_main_v25 (idx_main_v26 (ix2 b j)) = ix3 2 b j := funext fun a => Fin.ext (by
    match a with | ⟨0, _⟩ => rfl | ⟨1, _⟩ => exact (row_col b j).1 | ⟨2, _⟩ => exact (row_col b j).2)
  rw [e, stage_pre]

/-- The slab of gate 3, as a matrix. -/
theorem gate3 (b : Fin 4096) (j : Fin 1024) :
    val_main_v29 (F := Ideal) x0 x1 x3 x4 x5 x6 (ix2 b j) = pre x0 x1 x3 x4 x5 x6 3 b j := by
  rw [val_main_v29_apply, val_main_v28_apply]
  have e : idx_main_v28 (idx_main_v29 (ix2 b j)) = ix3 3 b j := funext fun a => Fin.ext (by
    match a with | ⟨0, _⟩ => rfl | ⟨1, _⟩ => exact (row_col b j).1 | ⟨2, _⟩ => exact (row_col b j).2)
  rw [e, stage_pre]

/-- One over one plus e^(-t), with the constant one as the program writes it, is the logistic function. -/
theorem spelled_logistic (t : EReal) :
    FloatOps.hostDivf (F := Ideal) (φ := .f32) (FloatOps.ofBits .f32 0x3F800000#32)
      (FloatOps.addf (FloatOps.ofBits .f32 0x3F800000#32) (FloatOps.hostUnary .exp (FloatOps.hostNegf t)))
      = Ideal.logistic t := by
  rw [Ideal.ofBits_def, Ideal.ofBits_one_f32]; rfl

/-- The input gate. -/
theorem sigma0 (b : Fin 4096) (j : Fin 1024) :
    val_main_v16 (F := Ideal) x0 x1 x3 x4 x5 x6 (ix2 b j) = Ideal.logistic (pre x0 x1 x3 x4 x5 x6 0 b j) := by
  rw [val_main_v16_apply, val_main_v15_apply, val_main_cst_0_apply, val_main_v14_apply, val_main_v13_apply,
    val_main_cst_apply, val_main_v12_apply, val_main_v11_apply, gate0, spelled_logistic]

/-- The forget gate. -/
theorem sigma1 (b : Fin 4096) (j : Fin 1024) :
    val_main_v24 (F := Ideal) x0 x1 x3 x4 x5 x6 (ix2 b j) = Ideal.logistic (pre x0 x1 x3 x4 x5 x6 1 b j) := by
  rw [val_main_v24_apply, val_main_v23_apply, val_main_cst_2_apply, val_main_v22_apply, val_main_v21_apply,
    val_main_cst_1_apply, val_main_v20_apply, val_main_v19_apply, gate1, spelled_logistic]

/-- The candidate. -/
theorem tanh2 (b : Fin 4096) (j : Fin 1024) :
    val_main_v27 (F := Ideal) x0 x1 x3 x4 x5 x6 (ix2 b j) = Ideal.tanh (pre x0 x1 x3 x4 x5 x6 2 b j) := by
  rw [val_main_v27_apply, gate2]; rfl

/-- The output gate. -/
theorem sigma3 (b : Fin 4096) (j : Fin 1024) :
    val_main_v35 (F := Ideal) x0 x1 x3 x4 x5 x6 (ix2 b j) = Ideal.logistic (pre x0 x1 x3 x4 x5 x6 3 b j) := by
  rw [val_main_v35_apply, val_main_v34_apply, val_main_cst_4_apply, val_main_v33_apply, val_main_v32_apply,
    val_main_cst_3_apply, val_main_v31_apply, val_main_v30_apply, gate3, spelled_logistic]

/-- The reference's first result is the output gate. -/
theorem out_eq : val_main_v35 (F := Ideal) x0 x1 x3 x4 x5 x6 = outGate x0 x1 x3 x4 x5 x6 := by
  funext i
  obtain ⟨b, j, rfl⟩ : ∃ (b : Fin 4096) (j : Fin 1024), i = ix2 b j := ⟨i 0, i 1, eq_ix2 i⟩
  exact sigma3 x0 x1 x3 x4 x5 x6 b j

/-- The reference's third result is the new cell state. -/
theorem cell_eq : val_main_v38 (F := Ideal) x0 x1 x2 x3 x4 x5 x6 = cell x0 x1 x3 x4 x5 x6 x2 := by
  funext i
  obtain ⟨b, j, rfl⟩ : ∃ (b : Fin 4096) (j : Fin 1024), i = ix2 b j := ⟨i 0, i 1, eq_ix2 i⟩
  rw [val_main_v38_apply, val_main_v36_apply, val_main_v37_apply, sigma1, sigma0, tanh2]
  rfl

/-- The reference's second result is the new hidden state. -/
theorem hidden_eq : val_main_v40 (F := Ideal) x0 x1 x2 x3 x4 x5 x6 = hidden x0 x1 x3 x4 x5 x6 x2 := by
  funext i
  obtain ⟨b, j, rfl⟩ : ∃ (b : Fin 4096) (j : Fin 1024), i = ix2 b j := ⟨i 0, i 1, eq_ix2 i⟩
  rw [val_main_v40_apply, val_main_v39_apply, sigma3, cell_eq]
  rfl

end Cert.LstmCell.Reference

end
-- ==== Proof.lean ====
/-
  An LSTM cell step on 4096 batch rows of 1024 features: the kernel program and the reference program compute the
  same three arrays on the extended reals.

  Both form, for each of the four gates g, each batch row b and each hidden unit j, the pre-activation

      pre g b j = (Σ_k x(b, k) · Wx(g, j, k) + Σ_k h(b, k) · Wh(g, j, k)) + (bx(g, j) + bh(g, j)),

  and return the output gate σ(pre 3), the new hidden state σ(pre 3) · tanh(cell) and the new cell state
  cell = σ(pre 1) · c + σ(pre 0) · tanh(pre 2), with σ the logistic function.

  The reference contracts each weight array with its input directly, the weight on the left of each product, and
  spells σ(t) as 1 / (1 + e^(-t)). The kernel first re-lays each weight array as a feature-by-4096 matrix with the
  four gates side by side and the bias sum as one row of 4096 entries, then at each of 8 grid points takes 512 batch
  rows, multiplies them into the two fused matrices, adds the bias row, and cuts the four gates out as column
  ranges. The two agree because multiplication of extended reals is commutative, because column g · 1024 + j of the
  fused layout holds exactly gate g, unit j, because narrowing exact values to fewer bits changes nothing, and
  because the spelled-out logistic function is the logistic function, also at ±∞. No finiteness of the inputs is
  used: the two sides add and multiply the same terms in the same grouping.

  The three frames are the generated ones (the reference's is its generated run with the results dropped), and the
  kernel has no idealization steps to account for.
-/
import proofs.«113566_j9131100472067_2_alg».proof.Defs
import proofs.«113566_j9131100472067_2_alg».proof.Proof.Gen.Kernel
import proofs.«113566_j9131100472067_2_alg».proof.Proof.Gen.Kernel.Skeleton
import proofs.«113566_j9131100472067_2_alg».proof.Proof.Gen.Kernel.Launch
import proofs.«113566_j9131100472067_2_alg».proof.Proof.Gen.Kernel.Points
import proofs.«113566_j9131100472067_2_alg».proof.Proof.Gen.Kernel.Frame
import proofs.«113566_j9131100472067_2_alg».proof.Proof.Gen.KernelIdeal
import proofs.«113566_j9131100472067_2_alg».proof.Proof.Gen.KernelIdeal.Skeleton
import proofs.«113566_j9131100472067_2_alg».proof.Proof.Gen.KernelIdeal.Launch
import proofs.«113566_j9131100472067_2_alg».proof.Proof.Gen.KernelIdeal.Points
import proofs.«113566_j9131100472067_2_alg».proof.Proof.Gen.KernelIdeal.Frame
import proofs.«113566_j9131100472067_2_alg».proof.Proof.Gen.ReferenceIdeal
import proofs.«113566_j9131100472067_2_alg».proof.Proof.Gen.KernelIdeal.Value
import proofs.«113566_j9131100472067_2_alg».proof.Proof.Gen.ReferenceIdeal.Run
import proofs.«113566_j9131100472067_2_alg».proof.Proof.Gen.ReferenceIdeal.Read
import proofs.«113566_j9131100472067_2_alg».proof.Proof.Gen.Pre_finite_inputs
import proofs.«113566_j9131100472067_2_alg».proof.Proof.LstmArray
import proofs.«113566_j9131100472067_2_alg».proof.Proof.LstmReference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with what it says about the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From arguments that agree, the kernel's three result arrays and the reference's are the specification's output
    gate, new hidden state and new cell state of those arguments. -/
theorem algebraic : Cert.algebraic_KernelIdeal_ReferenceIdeal := by
  intro m ρ m' ρ' _ hagree
  refine ⟨fun c => Cert.LstmCell.Kernel.specOut m c, fun c => Cert.LstmCell.Kernel.specHidden m c,
    fun c => Cert.LstmCell.Kernel.specCell m c, Cert.LstmCell.Kernel.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  obtain ⟨hout, hhid, hcell, hargs⟩ := h c
  refine ⟨hout.trans ?_, hhid.trans ?_, hcell.trans ?_, hargs⟩
  · rw [Cert.ReferenceIdeal.Read.val_main_v35_eq, Cert.LstmCell.Reference.out_eq, a0, a1, a3, a4, a5, a6]
  · rw [Cert.ReferenceIdeal.Read.val_main_v40_eq, Cert.LstmCell.Reference.hidden_eq, a0, a1, a2, a3, a4, a5, a6]
  · rw [Cert.ReferenceIdeal.Read.val_main_v38_eq, Cert.LstmCell.Reference.cell_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
